-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x576x768 : Shape := ⟨3, ![64, 576, 768]⟩
abbrev S64x576 : Shape := ⟨2, ![64, 576]⟩
abbrev S_ : Shape := ⟨0, ![]⟩

class Facts : Prop where
  bcast_S_S64x576x768 : S_.BroadcastsInDim S64x576x768 (![] : Fin 0 → Fin S64x576x768.rank)
  reducesTo_S64x576x768_S_d0_1_2 : S64x576x768.ReducesTo [0, 1, 2] S_
  h_S_ : 0 < S_.numel

variable [Facts]

def fn {F : FTy → Type} [FloatOps F] (main_arg0 : FVec F S64x576x768 .f32) (main_arg1 : IVec S64x576 32) : IVec S_ 1 :=
  let main_v0 : FVec F S64x576x768 .f32 := Host.absf main_arg0
  let main_cst : FVec F S_ .f32 := constant S_ .f32 0x7F800000#32
  let main_v1 : FVec F S64x576x768 .f32 := broadcastInDim S64x576x768 ![] bcast_S_S64x576x768 main_cst
  let main_v2 : IVec S64x576x768 1 := cmpf .olt main_v0 main_v1
  let main_c : IVec S_ 1 := constantI S_ 1 1#1
  let main_v3 : IVec S_ 1 := (fun x v => Host.reduce IntOp.andi x v reducesTo_S64x576x768_S_d0_1_2 h_S_) main_v2 main_c
  main_v3
-- ==== Kernel.lean ====
abbrev S64x576x768 : Shape := ⟨3, ![64, 576, 768]⟩
abbrev S64x576 : Shape := ⟨2, ![64, 576]⟩
abbrev S64x576x1 : Shape := ⟨3, ![64, 576, 1]⟩
abbrev S64x1x576 : Shape := ⟨3, ![64, 1, 576]⟩
abbrev S64x1x1 : Shape := ⟨3, ![64, 1, 1]⟩
abbrev S1x576x768 : Shape := ⟨3, ![1, 576, 768]⟩
abbrev S1x576x1 : Shape := ⟨3, ![1, 576, 1]⟩
abbrev S1x1x576 : Shape := ⟨3, ![1, 1, 576]⟩
abbrev S1x1x1 : Shape := ⟨3, ![1, 1, 1]⟩
abbrev S576x768 : Shape := ⟨2, ![576, 768]⟩
abbrev S576 : Shape := ⟨1, ![576]⟩
abbrev S576x1 : Shape := ⟨2, ![576, 1]⟩
abbrev S768x576 : Shape := ⟨2, ![768, 576]⟩
abbrev S576x576 : Shape := ⟨2, ![576, 576]⟩
abbrev S1x576 : Shape := ⟨2, ![1, 576]⟩
abbrev S1 : Shape := ⟨1, ![1]⟩
abbrev S1x1 : Shape := ⟨2, ![1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S64x576x768, .f32⟩
  | .hbm, ⟨1, _⟩ => ⟨S64x576, .i32⟩
  | .hbm, ⟨2, _⟩ => ⟨S64x576x1, .i32⟩
  | .hbm, ⟨3, _⟩ => ⟨S64x1x576, .i32⟩
  | .hbm, ⟨4, _⟩ => ⟨S64x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x576x768, .f32⟩
  | .local _ .vmem, ⟨1, _⟩ => ⟨S1x576x768, .f32⟩
  | .local _ .vmem, ⟨2, _⟩ => ⟨S1x576x1, .i32⟩
  | .local _ .vmem, ⟨3, _⟩ => ⟨S1x576x1, .i32⟩
  | .local _ .vmem, ⟨4, _⟩ => ⟨S1x1x576, .i32⟩
  | .local _ .vmem, ⟨5, _⟩ => ⟨S1x1x576, .i32⟩
  | .local _ .vmem, ⟨6, _⟩ => ⟨S1x1x1, .f32⟩
  | .local _ .vmem, ⟨7, _⟩ => ⟨S1x1x1, .f32⟩
  | _, _ => ⟨S64x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x576x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x576 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x576_S64x576x1_0_1 : S64x576.BroadcastsInDim S64x576x1 (![0, 1] : Fin 2 → Fin S64x576x1.rank)
  bcast_S64x576_S64x1x576_0_2 : S64x576.BroadcastsInDim S64x1x576 (![0, 2] : Fin 2 → Fin S64x1x576.rank)
  inb_S1x576x768_S1x576x768_0_0_0 : ∀ a, (![0, 0, 0] : Fin 3 → Nat) a + S1x576x768.size a ≤ S1x576x768.size a
  h_S1x576x768 : 0 < S1x576x768.numel
  shapeCasts_S1x576x768_S576x768 : S1x576x768.ShapeCasts S576x768
  reduces_S576x768_S576 : S576x768.Reduces [1] S576
  shapeCasts_S576_S576x1 : S576.ShapeCasts S576x1
  broadcasts_S576x1_S576x768 : S576x1.Broadcasts S576x768
  bitsLt_bf16_f32 : FTy.bits .bf16 < FTy.bits .f32
  transposes_S576x768_p1_0_S768x576 : S576x768.Transposes [1, 0] S768x576
  inb_S1x576x1_S1x576x1_0_0_0 : ∀ a, (![0, 0, 0] : Fin 3 → Nat) a + S1x576x1.size a ≤ S1x576x1.size a
  h_S1x576x1 : 0 < S1x576x1.numel
  shapeCasts_S1x576x1_S576x1 : S1x576x1.ShapeCasts S576x1
  inb_S1x1x576_S1x1x576_0_0_0 : ∀ a, (![0, 0, 0] : Fin 3 → Nat) a + S1x1x576.size a ≤ S1x1x576.size a
  h_S1x1x576 : 0 < S1x1x576.numel
  shapeCasts_S1x1x576_S1x576 : S1x1x576.ShapeCasts S1x576
  broadcasts_S576x1_S576x576 : S576x1.Broadcasts S576x576
  broadcasts_S1x576_S576x576 : S1x576.Broadcasts S576x576
  natLt_1_32 : 1 < 32
  iota_S576x1_d0_w32 : S576x1.Iotas .tc 32 [0]
  iota_S1x576_d1_w32 : S1x576.Iotas .tc 32 [1]
  reduces_S576x576_S576 : S576x576.Reduces [1] S576
  reduces_S576x1_S1 : S576x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S64x1x1_S_d0_1_2 : S64x1x1.ReducesTo [0, 1, 2] S_
  h_S_ : 0 < S_.numel
  dot_S576x768_S768x576_S576x576_1_0_0_1_n_n_wf : DotDims.WF S576x768 S768x576 S576x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x768.size a ≤ S64x576x768.size a
  hwx0_0 : ∀ i : grid0.Coords, EltTy.bits .f32 = 32 ∨ (Rect.block (s := S64x576x768) S1x576x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x576x1.size a ≤ S64x576x1.size a
  hwx0_1 : ∀ i : grid0.Coords, EltTy.bits .i32 = 32 ∨ (Rect.block (s := S64x576x1) S1x576x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x576.size a ≤ S64x1x576.size a
  hwx0_2 : ∀ i : grid0.Coords, EltTy.bits .i32 = 32 ∨ (Rect.block (s := S64x1x576) S1x1x576.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)

variable [Facts₀]

def dot_S576x768_S768x576_S576x576_1_0_0_1_n_n : DotDims S576x768 S768x576 S576x576 where
  lhsContracting := [1]
  rhsContracting := [0]
  lhsNonContracting := [0]
  rhsNonContracting := [1]
  lhsBatch := []
  rhsBatch := []
  wf := dot_S576x768_S768x576_S576x576_1_0_0_1_n_n_wf

abbrev win0_0 : Pipeline.Window sig grid0 :=
  Pipeline.Window.ofSpec (Memref.whole main_arg0) S1x576x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x576x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x576.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x576x768 : Shape := ⟨3, ![64, 576, 768]⟩
abbrev S64x576 : Shape := ⟨2, ![64, 576]⟩
abbrev S_ : Shape := ⟨0, ![]⟩
abbrev S64x576x1 : Shape := ⟨3, ![64, 576, 1]⟩
abbrev S64x576x576 : Shape := ⟨3, ![64, 576, 576]⟩
abbrev S64x1x576 : Shape := ⟨3, ![64, 1, 576]⟩
abbrev S576x576 : Shape := ⟨2, ![576, 576]⟩
abbrev S1x576x576 : Shape := ⟨3, ![1, 576, 576]⟩

abbrev nBuf : Space → Nat
  | .hbm => 72
  | .vmem => 0
  | .smem => 0
  | _ => 0

abbrev bufTy : (tb : Table) → Fin (tcTables nBuf tb) → BufTy
  | .hbm, ⟨0, _⟩ => ⟨S64x576x768, .f32⟩
  | .hbm, ⟨1, _⟩ => ⟨S64x576, .i32⟩
  | .hbm, ⟨2, _⟩ => ⟨S64x576x768, .f32⟩
  | .hbm, ⟨3, _⟩ => ⟨S_, .f32⟩
  | .hbm, ⟨4, _⟩ => ⟨S64x576, .f32⟩
  | .hbm, ⟨5, _⟩ => ⟨S64x576x1, .f32⟩
  | .hbm, ⟨6, _⟩ => ⟨S64x576x1, .f32⟩
  | .hbm, ⟨7, _⟩ => ⟨S_, .f32⟩
  | .hbm, ⟨8, _⟩ => ⟨S64x576x1, .f32⟩
  | .hbm, ⟨9, _⟩ => ⟨S64x576x1, .f32⟩
  | .hbm, ⟨10, _⟩ => ⟨S64x576x768, .f32⟩
  | .hbm, ⟨11, _⟩ => ⟨S64x576x768, .f32⟩
  | .hbm, ⟨12, _⟩ => ⟨S64x576x576, .f32⟩
  | .hbm, ⟨13, _⟩ => ⟨S_, .f32⟩
  | .hbm, ⟨14, _⟩ => ⟨S64x576x576, .f32⟩
  | .hbm, ⟨15, _⟩ => ⟨S64x576x576, .f32⟩
  | .hbm, ⟨16, _⟩ => ⟨S64x576x1, .i32⟩
  | .hbm, ⟨17, _⟩ => ⟨S64x1x576, .i32⟩
  | .hbm, ⟨18, _⟩ => ⟨S64x576x576, .i32⟩
  | .hbm, ⟨19, _⟩ => ⟨S64x576x576, .i32⟩
  | .hbm, ⟨20, _⟩ => ⟨S64x576x576, .i1⟩
  | .hbm, ⟨21, _⟩ => ⟨S64x576x576, .f32⟩
  | .hbm, ⟨22, _⟩ => ⟨S576x576, .i32⟩
  | .hbm, ⟨23, _⟩ => ⟨S576x576, .i32⟩
  | .hbm, ⟨24, _⟩ => ⟨S_, .i32⟩
  | .hbm, ⟨25, _⟩ => ⟨S576x576, .i32⟩
  | .hbm, ⟨26, _⟩ => ⟨S576x576, .i32⟩
  | .hbm, ⟨27, _⟩ => ⟨S576x576, .i1⟩
  | .hbm, ⟨28, _⟩ => ⟨S576x576, .f32⟩
  | .hbm, ⟨29, _⟩ => ⟨S_, .f32⟩
  | .hbm, ⟨30, _⟩ => ⟨S576x576, .f32⟩
  | .hbm, ⟨31, _⟩ => ⟨S576x576, .f32⟩
  | .hbm, ⟨32, _⟩ => ⟨S1x576x576, .f32⟩
  | .hbm, ⟨33, _⟩ => ⟨S64x576x576, .f32⟩
  | .hbm, ⟨34, _⟩ => ⟨S64x576x576, .f32⟩
  | .hbm, ⟨35, _⟩ => ⟨S1x576x576, .f32⟩
  | .hbm, ⟨36, _⟩ => ⟨S64x576x576, .f32⟩
  | .hbm, ⟨37, _⟩ => ⟨S64x576x576, .f32⟩
  | .hbm, ⟨38, _⟩ => ⟨S64x576x576, .f32⟩
  | .hbm, ⟨39, _⟩ => ⟨S_, .f32⟩
  | .hbm, ⟨40, _⟩ => ⟨S64x576, .f32⟩
  | .hbm, ⟨41, _⟩ => ⟨S_, .f32⟩
  | .hbm, ⟨42, _⟩ => ⟨S64x576, .f32⟩
  | .hbm, ⟨43, _⟩ => ⟨S64x576, .f32⟩
  | .hbm, ⟨44, _⟩ => ⟨S_, .f32⟩
  | .hbm, ⟨45, _⟩ => ⟨S64x576x576, .f32⟩
  | .hbm, ⟨46, _⟩ => ⟨S64x576x576, .f32⟩
  | .hbm, ⟨47, _⟩ => ⟨S64x576x576, .f32⟩
  | .hbm, ⟨48, _⟩ => ⟨S_, .f32⟩
  | .hbm, ⟨49, _⟩ => ⟨S64x576, .f32⟩
  | .hbm, ⟨50, _⟩ => ⟨S_, .f32⟩
  | .hbm, ⟨51, _⟩ => ⟨S64x576, .f32⟩
  | .hbm, ⟨52, _⟩ => ⟨S64x576, .f32⟩
  | .hbm, ⟨53, _⟩ => ⟨S64x576, .f32⟩
  | .hbm, ⟨54, _⟩ => ⟨S_, .f32⟩
  | .hbm, ⟨55, _⟩ => ⟨S64x576, .f32⟩
  | .hbm, ⟨56, _⟩ => ⟨S64x576, .f32⟩
  | .hbm, ⟨57, _⟩ => ⟨S64x576, .f32⟩
  | .hbm, ⟨58, _⟩ => ⟨S64x576, .f32⟩
  | .hbm, ⟨59, _⟩ => ⟨S64x576, .i1⟩
  | .hbm, ⟨60, _⟩ => ⟨S64x576, .f32⟩
  | .hbm, ⟨61, _⟩ => ⟨S64x576, .f32⟩
  | .hbm, ⟨62, _⟩ => ⟨S64x576, .f32⟩
  | .hbm, ⟨63, _⟩ => ⟨S64x576, .f32⟩
  | .hbm, ⟨64, _⟩ => ⟨S64x576, .f32⟩
  | .hbm, ⟨65, _⟩ => ⟨S64x576, .f32⟩
  | .hbm, ⟨66, _⟩ => ⟨S64x576, .f32⟩
  | .hbm, ⟨67, _⟩ => ⟨S64x576, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S64x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩

abbrev nD : Nat := 1
abbrev τ : Topo := Topo.v7x

variable {F : FTy → Type} [FloatOps F]

class Facts₀ : Prop where
  reducesTo_S64x576x768_S64x576_d2 : S64x576x768.ReducesTo [2] S64x576
  h_S_ : 0 < S_.numel
  bcast_S64x576_S64x576x1_0_1 : S64x576.BroadcastsInDim S64x576x1 (![0, 1] : Fin 2 → Fin S64x576x1.rank)
  bcast_S_S64x576x1 : S_.BroadcastsInDim S64x576x1 (![] : Fin 0 → Fin S64x576x1.rank)
  bcast_S64x576x1_S64x576x768_0_1_2 : S64x576x1.BroadcastsInDim S64x576x768 (![0, 1, 2] : Fin 3 → Fin S64x576x768.rank)
  bcast_S_S64x576x576 : S_.BroadcastsInDim S64x576x576 (![] : Fin 0 → Fin S64x576x576.rank)
  bcast_S64x576_S64x1x576_0_2 : S64x576.BroadcastsInDim S64x1x576 (![0, 2] : Fin 2 → Fin S64x1x576.rank)
  bcast_S64x576x1_S64x576x576_0_1_2 : S64x576x1.BroadcastsInDim S64x576x576 (![0, 1, 2] : Fin 3 → Fin S64x576x576.rank)
  bcast_S64x1x576_S64x576x576_0_1_2 : S64x1x576.BroadcastsInDim S64x576x576 (![0, 1, 2] : Fin 3 → Fin S64x576x576.rank)
  bcast_S_S576x576 : S_.BroadcastsInDim S576x576 (![] : Fin 0 → Fin S576x576.rank)
  bcast_S576x576_S1x576x576_1_2 : S576x576.BroadcastsInDim S1x576x576 (![1, 2] : Fin 2 → Fin S1x576x576.rank)
  bcast_S1x576x576_S64x576x576_0_1_2 : S1x576x576.BroadcastsInDim S64x576x576 (![0, 1, 2] : Fin 3 → Fin S64x576x576.rank)
  reducesTo_S64x576x576_S64x576_d2 : S64x576x576.ReducesTo [2] S64x576
  bcast_S_S64x576 : S_.BroadcastsInDim S64x576 (![] : Fin 0 → Fin S64x576.rank)
  reducesTo_S64x576_S_d0_1 : S64x576.ReducesTo [0, 1] S_
  dot_S64x576x768_S64x576x768_S64x576x576_2_2_1_1_0_0_wf : DotDims.WF S64x576x768 S64x576x768 S64x576x576 [2] [2] [1] [1] [0] [0]

variable [Facts₀]

def dot_S64x576x768_S64x576x768_S64x576x576_2_2_1_1_0_0 : DotDims S64x576x768 S64x576x768 S64x576x576 where
  lhsContracting := [2]
  rhsContracting := [2]
  lhsNonContracting := [1]
  rhsNonContracting := [1]
  lhsBatch := [0]
  rhsBatch := [0]
  wf := dot_S64x576x768_S64x576x768_S64x576x576_2_2_1_1_0_0_wf

class Facts : Prop extends Facts₀ where

variable [Facts]
-- ==== Proof.Consts.lean ====
/-
  The one float constant whose exact value the proof uses.

  The reference divides the cosine similarities by its temperature, the binary32 number nearest to 0.07, which is
  exactly 9395241 / 2^27. The kernel multiplies by the reciprocal instead, and its constant is named that
  reciprocal, 2^27 / 9395241. Over the extended reals dividing by a nonzero real is multiplying by its
  reciprocal, at the infinities too, so the two scalings are one function.
-/
import Idealize.ShloMosaic.PureOps.Ideal
import Idealize.ShloMosaic.PureOps.Ideal.Laws

noncomputable section

namespace Cert.Contrastive.Consts

open Idealize.ShloMosaic

/-- The reciprocal temperature, 2^27 / 9395241, as an extended real. -/
def invTemperature : EReal := ((134217728 / 9395241 : ℝ) : EReal)

/-- The reference's temperature word denotes 9395241 / 2^27. -/
theorem ofBits_temperature : Ideal.ofBits .f32 0x3D8F5C29#32 = ((9395241 / 134217728 : ℝ) : EReal) := by
  simp [Ideal.ofBits, Ideal.ieee, -EReal.coe_mul]; norm_num

/-- Dividing by the temperature is multiplying by its reciprocal, on every extended real. -/
theorem div_temperature (x : EReal) :
    Ideal.div x (Ideal.ofBits .f32 0x3D8F5C29#32) = x * invTemperature := by
  rw [ofBits_temperature, Ideal.div_coe (by norm_num : (9395241 / 134217728 : ℝ) ≠ 0)]
  unfold invTemperature
  congr 2
  norm_num

end Cert.Contrastive.Consts

end
-- ==== Proof.Spec.lean ====
/-
  The loss both programs compute, as one function of the two argument arrays over the extended reals.

  For one batch, with rows x_0 … x_575 in ℝ̄^768 and a position word p_n per row:
    * each row is divided by max(‖x_n‖, 1e-12), ‖·‖ the Euclidean norm;
    * C(n, m) is the inner product of the scaled rows n and m, times the reciprocal temperature, and zero on
      the diagonal;
    * M(n, m) is 1 when rows n and m carry the same position word and n ≠ m, else 0;
    * the row's positive sum is Σ_m C(n, m)·M(n, m) + 1e-8, its negative sum Σ_m C(n, m)·(1 − M(n, m)) + 1e-8;
    * the row's loss is softplus(negative − positive), softplus z = max(z, 0) + log(1 + exp(−|z|)).
  The result is the sum of all 64 · 576 row losses divided by 36864.

  The float literals 1e-12, 1e-8 and 36864 are kept as their bit patterns: both programs carry the same words,
  so their values are never needed.
-/
import Idealize.ShloMosaic.PureOps.Ideal
import Idealize.ShloMosaic.Lib.ValueIdx
import proofs.«102892_j68015102099702_1_alg».proof.Proof.Consts

noncomputable section

namespace Cert.Contrastive

open Idealize.ShloMosaic Idealize.ShloMosaic.ValueIdx

/-- The floor under a row's norm (the binary32 word both programs print for 1e-12). -/
abbrev normFloor : EReal := Ideal.ofBits .f32 0x2B8CBCCC#32
/-- The constant added to each masked row sum (the binary32 word both programs print for 1e-8). -/
abbrev sumFloor : EReal := Ideal.ofBits .f32 0x322BCC77#32
/-- The number of rows, 64 · 576 = 36864, as the binary32 word both programs divide by. -/
abbrev rowCount : EReal := Ideal.ofBits .f32 0x47100000#32

/-- The Euclidean norm of a row, floored. -/
def rowNorm (x : Fin 768 → EReal) : EReal := max (Ideal.sqrt (∑ d, x d * x d)) normFloor

/-- A row divided by its floored norm. -/
def unitRow (x : Fin 768 → EReal) (d : Fin 768) : EReal := Ideal.div (x d) (rowNorm x)

/-- The inner product of two scaled rows of a batch. -/
def cosine (x : Fin 576 → Fin 768 → EReal) (n m : Fin 576) : EReal := ∑ d, unitRow (x n) d * unitRow (x m) d

/-- Zero on the diagonal, one off it. -/
def offDiag (n m : Fin 576) : EReal := if n = m then 0 else 1

/-- One when two position words are equal, else zero. -/
def samePos (a b : BitVec 32) : EReal := if a = b then 1 else 0

/-- The scaled similarity of rows n and m, zero on the diagonal. -/
def sim (x : Fin 576 → Fin 768 → EReal) (n m : Fin 576) : EReal := cosine x n m * Consts.invTemperature * offDiag n m

/-- One for two different rows at the same position, else zero. -/
def posMask (p : Fin 576 → BitVec 32) (n m : Fin 576) : EReal := samePos (p n) (p m) * offDiag n m

/-- A row's similarities to the rows at its own position, summed. -/
def posSum (x : Fin 576 → Fin 768 → EReal) (p : Fin 576 → BitVec 32) (n : Fin 576) : EReal :=
  (∑ m, sim x n m * posMask p n m) + sumFloor

/-- A row's similarities to the other rows, summed. -/
def negSum (x : Fin 576 → Fin 768 → EReal) (p : Fin 576 → BitVec 32) (n : Fin 576) : EReal :=
  (∑ m, sim x n m * (1 - posMask p n m)) + sumFloor

/-- softplus z = max(z, 0) + log(1 + exp(−|z|)). -/
def softplus (z : EReal) : EReal := max z 0 + Ideal.log1p (Ideal.exp (-(max z (-z))))

/-- One row's loss. -/
def rowLoss (x : Fin 576 → Fin 768 → EReal) (p : Fin 576 → BitVec 32) (n : Fin 576) : EReal :=
  softplus (negSum x p n - posSum x p n)

/-- One batch's loss: its rows' losses summed. -/
def batchLoss (x : Fin 576 → Fin 768 → EReal) (p : Fin 576 → BitVec 32) : EReal := ∑ n, rowLoss x p n

/-- Batch b of the feature array, as rows. -/
def batchRows (X : (⟨3, ![64, 576, 768]⟩ : Shape).Idx → EReal) (b : Fin 64) : Fin 576 → Fin 768 → EReal :=
  fun n d => X (ix3 b n d)

/-- Batch b of the position array. -/
def batchPos (P : (⟨2, ![64, 576]⟩ : Shape).Idx → BitVec 32) (b : Fin 64) : Fin 576 → BitVec 32 :=
  fun n => P (ix2 b n)

/-- The mean loss over all rows of all batches. -/
def meanLoss (X : (⟨3, ![64, 576, 768]⟩ : Shape).Idx → EReal) (P : (⟨2, ![64, 576]⟩ : Shape).Idx → BitVec 32) : EReal :=
  Ideal.div (∑ b : Fin 64, batchLoss (batchRows X b) (batchPos P b)) rowCount

end Cert.Contrastive

end
-- ==== Proof.Scalars.lean ====
/-
  The places where the two programs spell one number differently, each on one value.

    * A condition as a float. The kernel widens the condition bit to a word and converts it signed; the
      reference converts the bit unsigned. Both give 1 or 0.
    * The off-diagonal mask. The kernel tests row ≠ column on the row and column numbers; the reference
      subtracts the identity matrix (row = column, as 1 or 0) from 1. Row and column numbers are below 576, so
      their 32-bit words are equal exactly when the numbers are.
    * softplus. Both programs compute max(z, 0) + log(1 + exp(−|z − 0|)) behind a guard that tests z − 0 ≠ z − 0,
      which never holds among the extended reals, where every value equals itself. The kernel writes the
      negation as 0 − |·|, the reference as a negation; 0 − y = −y for every extended real y.
-/
import Idealize.ShloMosaic.Lib.KernelVsHost
import Idealize.ShloMosaic.Lib.IdealHost
import proofs.«102892_j68015102099702_1_alg».proof.Proof.Spec

noncomputable section

namespace Cert.Contrastive

open Idealize.ShloMosaic Idealize.ShloMosaic.ValueIdx

/-- Two numbers below 576 have equal 32-bit words exactly when they are equal. -/
theorem ofNat_eq_iff (n m : Fin 576) : BitVec.ofNat 32 n.val = BitVec.ofNat 32 m.val ↔ n = m := by
  constructor
  · intro e
    have h := congrArg BitVec.toNat e
    simp only [BitVec.toNat_ofNat] at h
    have hn := n.isLt
    have hm := m.isLt
    rw [Nat.mod_eq_of_lt (by omega), Nat.mod_eq_of_lt (by omega)] at h
    exact Fin.ext h
  · rintro rfl; rfl

/-- The equality test on words, as a bit. -/
theorem cmpi_eq_word (a b : BitVec 32) : IntOp.cmpi .eq a b = if a = b then 1#1 else 0#1 := by
  unfold IntOp.cmpi
  by_cases h : a = b
  · subst h; simp
  · have hb : (a == b) = false := beq_eq_false_iff_ne.mpr h
    simp [h, hb]

/-- The inequality test on words, as a bit. -/
theorem cmpi_ne_word (a b : BitVec 32) : IntOp.cmpi .ne a b = if a = b then 0#1 else 1#1 := by
  unfold IntOp.cmpi
  by_cases h : a = b
  · subst h; simp
  · have hb : (a != b) = true := bne_iff_ne.mpr h
    simp [h, hb]

/-- A bit converted unsigned: one or zero. -/
theorem uitofp_bit (c : BitVec 1) : (((c.toNat : ℝ) : EReal)) = if c = 1#1 then 1 else 0 := by
  rcases BitVec.eq_zero_or_eq_one c with h | h <;> subst h <;> simp

/-- A bit widened to a word and converted signed: one or zero. -/
theorem sitofp_bit (c : BitVec 1) : ((((c.setWidth 32).toInt : ℝ) : EReal)) = if c = 1#1 then 1 else 0 := by
  rcases BitVec.eq_zero_or_eq_one c with h | h <;> subst h <;> simp

/-- The reference's position test as a float. -/
theorem samePos_ref (a b : BitVec 32) : ((((IntOp.cmpi .eq a b).toNat : ℝ) : EReal)) = samePos a b := by
  rw [uitofp_bit, cmpi_eq_word]
  unfold samePos
  by_cases h : a = b <;> simp [h]

/-- The kernel's position test as a float. -/
theorem samePos_kernel (a b : BitVec 32) : (((((IntOp.cmpi .eq a b).setWidth 32).toInt : ℝ) : EReal)) = samePos a b := by
  rw [sitofp_bit, cmpi_eq_word]
  unfold samePos
  by_cases h : a = b <;> simp [h]

/-- The kernel's off-diagonal mask: row ≠ column as a float. -/
theorem offDiag_kernel (n m : Fin 576) :
    (((((IntOp.cmpi .ne (BitVec.ofNat 32 n.val) (BitVec.ofNat 32 m.val)).setWidth 32).toInt : ℝ) : EReal)) = offDiag n m := by
  rw [sitofp_bit, cmpi_ne_word]
  unfold offDiag
  by_cases h : n = m
  · subst h; simp
  · have h' : ¬ BitVec.ofNat 32 n.val = BitVec.ofNat 32 m.val := fun e => h ((ofNat_eq_iff n m).mp e)
    simp [h, h']

/-- The reference's off-diagonal mask: one minus the identity matrix. -/
theorem offDiag_ref (n m : Fin 576) :
    Ideal.ofBits .f32 0x3F800000#32
      - ((((IntOp.cmpi .eq (IntOp.addi (BitVec.ofNat 32 n.val) 0#32) (BitVec.ofNat 32 m.val)).toNat : ℝ) : EReal)) = offDiag n m := by
  have hadd : IntOp.addi (BitVec.ofNat 32 n.val) 0#32 = BitVec.ofNat 32 n.val := by
    unfold IntOp.addi; simp
  have one_sub_one : (1 : EReal) - 1 = 0 := by
    rw [← EReal.coe_one, ← EReal.coe_sub, sub_self, EReal.coe_zero]
  rw [hadd, uitofp_bit, cmpi_eq_word, Ideal.ofBits_one_f32]
  unfold offDiag
  by_cases h : n = m
  · subst h; simp [one_sub_one]
  · have h' : ¬ BitVec.ofNat 32 n.val = BitVec.ofNat 32 m.val := fun e => h ((ofNat_eq_iff n m).mp e)
    simp [h, h']

/-- The guard of softplus never fires: no extended real differs from itself. -/
theorem cmp_ne_self (p : CmpFPredicate) (hp : p = .one ∨ p = .une) (y : EReal) : Ideal.cmp p y y = 0#1 := by
  rcases hp with rfl | rfl <;> simp [Ideal.cmp]

/-- The reference's softplus: the guard passes, and z − 0 = z. -/
theorem softplus_ref (z : EReal) :
    Scalar.select (Ideal.cmp .une (z - Ideal.ofBits .f32 0x00000000#32) (z - Ideal.ofBits .f32 0x00000000#32))
      (z + Ideal.ofBits .f32 0x00000000#32)
      (max z (Ideal.ofBits .f32 0x00000000#32)
        + Ideal.log1p (Ideal.exp (-(max (z - Ideal.ofBits .f32 0x00000000#32) (-(z - Ideal.ofBits .f32 0x00000000#32))))))
      = softplus z := by
  rw [cmp_ne_self _ (Or.inr rfl), select_zero, Ideal.ofBits_zero_f32, sub_zero]
  rfl

/-- The kernel's softplus: the same, with the negation written 0 − |z|. -/
theorem softplus_kernel (z : EReal) :
    Scalar.select (Ideal.cmp .one (z - Ideal.ofBits .f32 0x00000000#32) (z - Ideal.ofBits .f32 0x00000000#32))
      (z + Ideal.ofBits .f32 0x00000000#32)
      (max z (Ideal.ofBits .f32 0x00000000#32)
        + Ideal.log1p (Ideal.exp (Ideal.ofBits .f32 0x00000000#32
            - (max (z - Ideal.ofBits .f32 0x00000000#32) (-(z - Ideal.ofBits .f32 0x00000000#32))))))
      = softplus z := by
  rw [cmp_ne_self _ (Or.inl rfl), select_zero, Ideal.ofBits_zero_f32, sub_zero, zero_sub]
  rfl

end Cert.Contrastive

end
-- ==== Proof.LibLayoutColumn.lean ====
/-
  Layout operations on column vectors read at an index, in the style of the library's row forms.

  A sum over a matrix's lanes with the axis kept leaves a column vector of shape [a, 1]. Reading such a value
  through a shape cast or a broadcast at an index written by coordinates:
    * an [a] vector cast to the column [a, 1] reads, at (i, u), the vector at i;
    * a column [a, 1] broadcast along the lanes to [a, b] reads, at (p, c), the column at (p, 0);
  the sum over one axis of a rank-2 value read at a coordinate, as a sum over that axis's coordinates;
  and arrays whose trailing axes are unit axes: a [1, 1, 1] array has the one index (0, 0, 0), and a sum over the
  indices of an [n, 1, 1] array is a sum over its leading coordinate.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutColumn

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `[a, b]` value, read at row `r`: the sum over the lane coordinate. The accumulator
    is the neutral zero word, which the exact reading drops. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum down the rows of a column `[a, 1]`, read at its one index: the sum over the row coordinate. -/
theorem rowSum_column_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show (u : ℕ) = 0
    have := u.isLt
    omega

/-! ## Unit axes -/

/-- The one index of a `[1, 1, 1]` array. -/
theorem eq_ix3_unit (i : (⟨3, ![1, 1, 1]⟩ : Shape).Idx) : i = ix3 (0 : Fin 1) (0 : Fin 1) (0 : Fin 1) := by
  funext a
  apply Fin.ext
  match a with
  | ⟨0, _⟩ => have h : (i 0).val < 1 := (i 0).isLt; show (i 0).val = 0; omega
  | ⟨1, _⟩ => have h : (i 1).val < 1 := (i 1).isLt; show (i 1).val = 0; omega
  | ⟨2, _⟩ => have h : (i 2).val < 1 := (i 2).isLt; show (i 2).val = 0; omega

/-- The indices of an `[n, 1, 1]` array are its leading coordinates. -/
def lead3 (n : ℕ) : Fin n ≃ (⟨3, ![n, 1, 1]⟩ : Shape).Idx where
  toFun b := ix3 b (0 : Fin 1) (0 : Fin 1)
  invFun i := ⟨(i 0).val, (i 0).isLt⟩
  left_inv b := rfl
  right_inv i := by
    funext a
    apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega

/-- A sum over the indices of an `[n, 1, 1]` array is the sum over its leading coordinate. -/
theorem sum_idx_n11 {M : Type*} [AddCommMonoid M] {n : ℕ} (f : (⟨3, ![n, 1, 1]⟩ : Shape).Idx → M) :
    ∑ i, f i = ∑ b : Fin n, f (ix3 b (0 : Fin 1) (0 : Fin 1)) :=
  (Equiv.sum_comp (lead3 n) f).symm

end Idealize.ShloMosaic.LayoutColumn

end
-- ==== Proof.KernelBlock.lean ====
/-
  What one grid point of the kernel leaves in its output block: one batch's loss.

  The point's three input blocks are one batch of feature rows, x : [1, 576, 768], and that batch's position
  words twice, as a column q : [1, 576, 1] and as a row k : [1, 1, 576]. The body's stages, each read here at an
  index written by coordinates:
    rows          the block without its leading unit axis;
    floored norm  per row, max(√(Σ_d x_d²), 1e-12), a column;
    scaled rows   each row over its floored norm;
    products      the scaled rows against their own transpose: entry (n, m) is the inner product of scaled rows
                  n and m (the rounding to the narrower float format on the way into the product is the
                  identity on exact values, and the product's accumulator is the zero matrix);
    masks         row ≠ column as a float; q_n = k_m as a float, times that;
    row sums      over the lanes, of products · masks;
    softplus and the sum down the rows, stored as the block's one element.
  The result is `batchLoss` of the batch's rows and positions, provided the column and the row of position words
  agree (they are two layouts of one array; the caller supplies that).
-/
import proofs.«102892_j68015102099702_1_alg».proof.Proof.Gen.KernelIdeal.Skeleton
import proofs.«102892_j68015102099702_1_alg».proof.Proof.Spec
import proofs.«102892_j68015102099702_1_alg».proof.Proof.Scalars
import proofs.«102892_j68015102099702_1_alg».proof.Proof.LibLayoutColumn
import Idealize.ShloMosaic.Lib.ValueLayout
import Idealize.ShloMosaic.Lib.Pipeline.Value
import Idealize.ShloMosaic.PureOps.Ideal.Laws
import Idealize.ShloMosaic.PureOps.IdealRules

noncomputable section

namespace Cert.Contrastive.Kernel

open Idealize.ShloMosaic Idealize.ShloMosaic.ValueIdx Idealize.ShloMosaic.LayoutColumn
open Cert.KernelIdeal Cert.KernelIdeal.Gen

/-- The kernel's named constant denotes the reciprocal temperature. -/
theorem invTemperature_named :
    Named.named (F := Ideal) Cert.KernelIdeal.κ "inv_temperature" (φ := .f32) 0x41649249#32 = Consts.invTemperature :=
  IdealRules.named_const.ideal_named_scalar _ _ _ _ rfl

/-! ## The stages, named -/

/-- The feature block as rows. -/
def rows (x0 : FVec Ideal S1x576x768 .f32) : FVec Ideal S576x768 .f32 :=
  shapeCast S576x768 x0 shapeCasts_S1x576x768_S576x768

/-- Each row's floored norm, as a column. -/
def flooredNorm (x0 : FVec Ideal S1x576x768 .f32) : FVec Ideal S576x1 .f32 :=
  maximumf
    (sqrt (shapeCast S576x1
      (multiReduction .add [1] S576 (mulf (rows x0) (rows x0)) 0x00000000#32 reduces_S576x768_S576 (.inl rfl) rfl)
      shapeCasts_S576_S576x1))
    (broadcast S576x1 (Scalar.ofBits (F := Ideal) .f32 0x2B8CBCCC#32))

/-- The rows over their floored norms. -/
def scaledRows (x0 : FVec Ideal S1x576x768 .f32) : FVec Ideal S576x768 .f32 :=
  divf (rows x0) (broadcastTo S576x768 (flooredNorm x0) broadcasts_S576x1_S576x768)

/-- The scaled rows against their transpose. -/
def products (x0 : FVec Ideal S1x576x768 .f32) : FVec Ideal S576x576 .f32 :=
  matmul dot_S576x768_S768x576_S576x576_1_0_0_1_n_n none
    (truncf .bf16 (scaledRows x0) bitsLt_bf16_f32)
    (transpose S768x576 [1, 0] (truncf .bf16 (scaledRows x0) bitsLt_bf16_f32) transposes_S576x768_p1_0_S768x576)
    (constant (F := Ideal) S576x576 .f32 0x00000000#32)

/-- The printed payload of the scaled, masked similarities is the product matrix times the named constant times
    the off-diagonal mask. -/
theorem pay3_eq (x0 : FVec Ideal S1x576x768 .f32) :
    k0_pay3 (F := Ideal) x0
      = mulf (mulf (products x0) (broadcast S576x576 (Named.named (F := Ideal) κ "inv_temperature" (φ := .f32) 0x41649249#32)))
          (k0_pay2 (F := Ideal)) := rfl

/-! ## Each stage at an index -/

theorem rows_apply (x0 : FVec Ideal S1x576x768 .f32) (n : Fin 576) (d : Fin 768) :
    rows x0 (ix2 n d) = x0 (ix3 (0 : Fin 1) n d) :=
  shapeCast_1ab_ab_apply x0 _ n d

theorem flooredNorm_apply (x0 : FVec Ideal S1x576x768 .f32) (n : Fin 576) :
    flooredNorm x0 (ix2 n (0 : Fin 1)) = rowNorm (fun d => x0 (ix3 (0 : Fin 1) n d)) := by
  unfold flooredNorm rowNorm
  show max (Ideal.sqrt (shapeCast S576x1
      (multiReduction .add [1] S576 (mulf (rows x0) (rows x0)) 0x00000000#32 reduces_S576x768_S576 (.inl rfl) rfl)
      shapeCasts_S576_S576x1 (ix2 n (0 : Fin 1)))) (Ideal.ofBits .f32 0x2B8CBCCC#32) = _
  refine congrArg (fun s => max (Ideal.sqrt s) _) ?_
  refine (shapeCast_a_a1_apply _ _ n 0).trans ?_
  refine (laneSum_apply (mulf (rows x0) (rows x0)) reduces_S576x768_S576 (.inl rfl) rfl n).trans ?_
  refine Finset.sum_congr rfl fun d _ => ?_
  show rows x0 (ix2 n d) * rows x0 (ix2 n d) = _
  rw [rows_apply]

theorem scaledRows_apply (x0 : FVec Ideal S1x576x768 .f32) (n : Fin 576) (d : Fin 768) :
    scaledRows x0 (ix2 n d) = unitRow (fun d => x0 (ix3 (0 : Fin 1) n d)) d := by
  unfold scaledRows unitRow
  show Ideal.div (rows x0 (ix2 n d)) (broadcastTo S576x768 (flooredNorm x0) broadcasts_S576x1_S576x768 (ix2 n d)) = _
  rw [rows_apply]
  refine congrArg (Ideal.div _) ?_
  refine (broadcastTo_a1_ab_apply _ _ n d).trans ?_
  exact flooredNorm_apply x0 n

/-! ## The product matrix at an index -/

/-- Row coordinate of the left operand's index: the output's row. -/
theorem lhs_row (i : S576x576.Idx) (q : dot_S576x768_S768x576_S576x576_1_0_0_1_n_n.contr.Idx) :
    (dot_S576x768_S768x576_S576x576_1_0_0_1_n_n.lhsIdx i q 0).val = (i 0).val := by
  unfold DotDims.lhsIdx
  rw [dif_neg (show ¬(0 : Fin S576x768.rank) ∈ dot_S576x768_S768x576_S576x576_1_0_0_1_n_n.lhsBatch by decide),
    dif_pos (show (0 : Fin S576x768.rank) ∈ dot_S576x768_S768x576_S576x576_1_0_0_1_n_n.lhsNonContracting by decide)]
  rfl

/-- Column coordinate of the right operand's index: the output's column. -/
theorem rhs_col (i : S576x576.Idx) (q : dot_S576x768_S768x576_S576x576_1_0_0_1_n_n.contr.Idx) :
    (dot_S576x768_S768x576_S576x576_1_0_0_1_n_n.rhsIdx i q 1).val = (i 1).val := by
  unfold DotDims.rhsIdx
  rw [dif_neg (show ¬(1 : Fin S768x576.rank) ∈ dot_S576x768_S768x576_S576x576_1_0_0_1_n_n.rhsBatch by decide),
    dif_pos (show (1 : Fin S768x576.rank) ∈ dot_S576x768_S768x576_S576x576_1_0_0_1_n_n.rhsNonContracting by decide)]
  rfl

/-- Entry (n, m) of the product matrix is the inner product of scaled rows n and m: the contraction runs over
    the feature coordinate, the right operand being the transpose. -/
theorem products_apply (x0 : FVec Ideal S1x576x768 .f32) (n m : Fin 576) :
    products x0 (ix2 n m) = cosine (fun n d => x0 (ix3 (0 : Fin 1) n d)) n m := by
  unfold products cosine
  simp only [matmul]
  rw [Ideal.matmul_constant_zero_apply,
    ← Equiv.sum_comp (contrEquiv1 dot_S576x768_S768x576_S576x576_1_0_0_1_n_n 768 rfl rfl).symm]
  refine Finset.sum_congr rfl fun k _ => ?_
  have hk := contrEquiv1_symm_val dot_S576x768_S768x576_S576x576_1_0_0_1_n_n 768 rfl rfl k
  have el : dot_S576x768_S768x576_S576x576_1_0_0_1_n_n.lhsIdx (ix2 n m)
      ((contrEquiv1 dot_S576x768_S768x576_S576x576_1_0_0_1_n_n 768 rfl rfl).symm k) = ix2 n k :=
    funext fun a => Fin.ext (by
      match a with
      | ⟨0, _⟩ => exact lhs_row _ _
      | ⟨1, _⟩ => exact (dot_S576x768_S768x576_S576x576_1_0_0_1_n_n.lhsIdx_val_of_single rfl _ _).trans hk)
  have er : dot_S576x768_S768x576_S576x576_1_0_0_1_n_n.rhsIdx (ix2 n m)
      ((contrEquiv1 dot_S576x768_S768x576_S576x576_1_0_0_1_n_n 768 rfl rfl).symm k) = ix2 k m :=
    funext fun a => Fin.ext (by
      match a with
      | ⟨0, _⟩ => exact (dot_S576x768_S768x576_S576x576_1_0_0_1_n_n.rhsIdx_val_of_single rfl _ _).trans hk
      | ⟨1, _⟩ => exact rhs_col _ _)
  rw [el, er]
  show scaledRows x0 (ix2 n k)
      * transpose S768x576 [1, 0] (truncf .bf16 (scaledRows x0) bitsLt_bf16_f32) transposes_S576x768_p1_0_S768x576 (ix2 k m) = _
  rw [transpose_ix2_apply]
  show scaledRows x0 (ix2 n k) * scaledRows x0 (ix2 m k) = _
  rw [scaledRows_apply, scaledRows_apply]

/-! ## The masks -/

/-- The off-diagonal mask: row number ≠ column number, as a float. -/
theorem pay2_apply (n m : Fin 576) : k0_pay2 (F := Ideal) (ix2 n m) = offDiag n m := by
  unfold k0_pay2
  show (((((IntOp.cmpi .ne
      (broadcastTo S576x576 (iota .tc S576x1 32 [0] iota_S576x1_d0_w32) broadcasts_S576x1_S576x576 (ix2 n m))
      (broadcastTo S576x576 (iota .tc S1x576 32 [1] iota_S1x576_d1_w32) broadcasts_S1x576_S576x576 (ix2 n m))).setWidth 32).toInt : ℝ) : EReal)) = _
  rw [broadcastTo_a1_ab_apply, broadcastTo_1b_ab_apply, iota_single_apply, iota_single_apply]
  exact offDiag_kernel n m

/-- The position mask: the column of position words against the row of them, off the diagonal. -/
theorem pay4_apply (x1 : Vec Ideal S1x576x1 .i32) (x2 : Vec Ideal S1x1x576 .i32) (n m : Fin 576) :
    k0_pay4 (F := Ideal) x1 x2 (ix2 n m)
      = samePos (x1 (ix3 (0 : Fin 1) n (0 : Fin 1))) (x2 (ix3 (0 : Fin 1) (0 : Fin 1) m)) * offDiag n m := by
  unfold k0_pay4
  show (((((IntOp.cmpi .eq
      (broadcastTo S576x576 (shapeCast S576x1 x1 shapeCasts_S1x576x1_S576x1) broadcasts_S576x1_S576x576 (ix2 n m))
      (broadcastTo S576x576 (shapeCast S1x576 x2 shapeCasts_S1x1x576_S1x576) broadcasts_S1x576_S576x576 (ix2 n m))).setWidth 32).toInt : ℝ) : EReal))
      * k0_pay2 (F := Ideal) (ix2 n m) = _
  rw [broadcastTo_a1_ab_apply, broadcastTo_1b_ab_apply, shapeCast_1ab_ab_apply, shapeCast_1ab_ab_apply, pay2_apply,
    samePos_kernel]

/-- The scaled similarity, zero on the diagonal. -/
theorem pay3_apply (x0 : FVec Ideal S1x576x768 .f32) (n m : Fin 576) :
    k0_pay3 (F := Ideal) x0 (ix2 n m) = sim (fun n d => x0 (ix3 (0 : Fin 1) n d)) n m := by
  rw [pay3_eq]
  show products x0 (ix2 n m) * Named.named (F := Ideal) κ "inv_temperature" (φ := .f32) 0x41649249#32
      * k0_pay2 (F := Ideal) (ix2 n m) = _
  rw [products_apply, invTemperature_named, pay2_apply]
  rfl

/-! ## The two row sums -/

/-- The positive sum of row n, as a column entry. -/
theorem pay5_apply (x0 : FVec Ideal S1x576x768 .f32) (x1 : Vec Ideal S1x576x1 .i32) (x2 : Vec Ideal S1x1x576 .i32) (n : Fin 576) :
    k0_pay5 (F := Ideal) x0 x1 x2 (ix2 n (0 : Fin 1))
      = (∑ m : Fin 576, k0_pay3 (F := Ideal) x0 (ix2 n m) * k0_pay4 (F := Ideal) x1 x2 (ix2 n m)) + sumFloor := by
  unfold k0_pay5
  show shapeCast S576x1 (multiReduction .add [1] S576 (mulf (k0_pay3 (F := Ideal) x0) (k0_pay4 (F := Ideal) x1 x2))
      0x00000000#32 reduces_S576x576_S576 (.inl rfl) rfl) shapeCasts_S576_S576x1 (ix2 n (0 : Fin 1))
      + Ideal.ofBits .f32 0x322BCC77#32 = _
  refine congrArg (· + sumFloor) ?_
  refine (shapeCast_a_a1_apply _ _ n 0).trans ?_
  exact laneSum_apply (mulf (k0_pay3 (F := Ideal) x0) (k0_pay4 (F := Ideal) x1 x2)) reduces_S576x576_S576 (.inl rfl) rfl n

/-- The negative sum of row n, before its floor is added. -/
theorem pay6_apply (x0 : FVec Ideal S1x576x768 .f32) (x1 : Vec Ideal S1x576x1 .i32) (x2 : Vec Ideal S1x1x576 .i32) (n : Fin 576) :
    k0_pay6 (F := Ideal) x0 x1 x2 (ix1 n)
      = ∑ m : Fin 576, k0_pay3 (F := Ideal) x0 (ix2 n m)
          * (Ideal.ofBits .f32 0x3F800000#32 - k0_pay4 (F := Ideal) x1 x2 (ix2 n m)) := by
  unfold k0_pay6
  exact laneSum_apply (mulf (k0_pay3 (F := Ideal) x0)
    (subf (broadcast S576x576 (Scalar.ofBits (F := Ideal) .f32 0x3F800000#32)) (k0_pay4 (F := Ideal) x1 x2)))
    reduces_S576x576_S576 (.inl rfl) rfl n

/-! ## softplus and the sum down the rows -/

/-- The difference of the two row sums, as a column. -/
def gap (v37 : FVec Ideal S576x1 .f32) (v41 : FVec Ideal S576 .f32) : FVec Ideal S576x1 .f32 :=
  subf (addf (shapeCast S576x1 v41 shapeCasts_S576_S576x1) (broadcast S576x1 (Scalar.ofBits (F := Ideal) .f32 0x322BCC77#32))) v37

/-- softplus down a column, as the body spells it. -/
def softplusColumn (z : FVec Ideal S576x1 .f32) : FVec Ideal S576x1 .f32 :=
  select (cmpf .one (subf z (broadcast S576x1 (Scalar.ofBits (F := Ideal) .f32 0x00000000#32)))
      (subf z (broadcast S576x1 (Scalar.ofBits (F := Ideal) .f32 0x00000000#32))))
    (addf z (broadcast S576x1 (Scalar.ofBits (F := Ideal) .f32 0x00000000#32)))
    (addf (maximumf z (broadcast S576x1 (Scalar.ofBits (F := Ideal) .f32 0x00000000#32)))
      (log1p (exp (subf (broadcast S576x1 (Scalar.ofBits (F := Ideal) .f32 0x00000000#32))
        (absf (subf z (broadcast S576x1 (Scalar.ofBits (F := Ideal) .f32 0x00000000#32))))))))

/-- The stored value is the sum down the rows of softplus of the gap, through two shape casts. -/
theorem pay1_eq (v37 : FVec Ideal S576x1 .f32) (v41 : FVec Ideal S576 .f32) :
    k0_pay1 (F := Ideal) v37 v41
      = shapeCast S1x1x1 (shapeCast S1x1
          (multiReduction .add [0] S1 (softplusColumn (gap v37 v41)) 0x00000000#32 reduces_S576x1_S1 (.inl rfl) rfl)
          shapeCasts_S1_S1x1) shapeCasts_S1x1_S1x1x1 := rfl

theorem gap_apply (v37 : FVec Ideal S576x1 .f32) (v41 : FVec Ideal S576 .f32) (n : Fin 576) :
    gap v37 v41 (ix2 n (0 : Fin 1)) = (v41 (ix1 n) + sumFloor) - v37 (ix2 n (0 : Fin 1)) := by
  unfold gap
  show (shapeCast S576x1 v41 shapeCasts_S576_S576x1 (ix2 n (0 : Fin 1)) + Ideal.ofBits .f32 0x322BCC77#32)
      - v37 (ix2 n (0 : Fin 1)) = _
  rw [shapeCast_a_a1_apply]

theorem softplusColumn_apply (z : FVec Ideal S576x1 .f32) (i : S576x1.Idx) :
    softplusColumn z i = softplus (z i) :=
  softplus_kernel (z i)

/-- The stored value at the block's one index. -/
theorem pay1_apply (v37 : FVec Ideal S576x1 .f32) (v41 : FVec Ideal S576 .f32) (i : S1x1x1.Idx) :
    k0_pay1 (F := Ideal) v37 v41 i = ∑ n : Fin 576, softplus ((v41 (ix1 n) + sumFloor) - v37 (ix2 n (0 : Fin 1))) := by
  have hi : i = ix3 (0 : Fin 1) (0 : Fin 1) (0 : Fin 1) := eq_ix3_unit i
  subst hi
  rw [pay1_eq]
  refine (shapeCast_ab_1ab_apply _ _ 0 0 0).trans ?_
  refine (shapeCast_a_1a_apply _ _ 0 0).trans ?_
  refine (rowSum_column_apply _ reduces_S576x1_S1 (.inl rfl) rfl 0).trans ?_
  refine Finset.sum_congr rfl fun n _ => ?_
  rw [softplusColumn_apply, gap_apply]

/-! ## The block -/

/-- What the body stores: the batch's loss, when the column and the row of position words are one array `p`. -/
theorem payload_eq (x0 : FVec Ideal S1x576x768 .f32) (x1 : Vec Ideal S1x576x1 .i32) (x2 : Vec Ideal S1x1x576 .i32)
    (p : Fin 576 → BitVec 32) (h1 : ∀ n, x1 (ix3 (0 : Fin 1) n (0 : Fin 1)) = p n)
    (h2 : ∀ m, x2 (ix3 (0 : Fin 1) (0 : Fin 1) m) = p m) :
    k0_pay1 (F := Ideal) (k0_pay5 (F := Ideal) x0 x1 x2) (k0_pay6 (F := Ideal) x0 x1 x2)
      = fun _ => batchLoss (fun n d => x0 (ix3 (0 : Fin 1) n d)) p := by
  funext i
  rw [pay1_apply]
  unfold batchLoss
  refine Finset.sum_congr rfl fun n _ => ?_
  unfold rowLoss
  refine congrArg softplus ?_
  rw [pay6_apply, pay5_apply]
  simp only [pay3_apply, pay4_apply, h1, h2]
  unfold negSum posSum posMask
  rw [Ideal.ofBits_one_f32]

end Cert.Contrastive.Kernel

end
-- ==== Proof.KernelRun.lean ====
/-
  The kernel's run: its result is `meanLoss` of its two arguments.

  The grid has one point per batch. Point t fetches batch t of the feature array and batch t of the two layouts of
  the position array that the host wrote before the region (the positions as columns, [64, 576, 1], and as rows,
  [64, 1, 576]: both read the argument at (batch, row)). The body leaves that batch's loss in the point's output
  block, which is element t of the [64, 1, 1] output array; the 64 blocks cover the array. After the region the
  host sums the array (from zero) and divides by the row count.
-/
import proofs.«102892_j68015102099702_1_alg».proof.Proof.Gen.KernelIdeal.Frame
import proofs.«102892_j68015102099702_1_alg».proof.Proof.KernelBlock
import Idealize.ShloMosaic.Lib.Pipeline.Value
import Idealize.ShloMosaic.Lib.StableHlo.Run
import Idealize.ShloMosaic.Lib.IdealHost

noncomputable section

namespace Cert.Contrastive.KernelRun

open Idealize.ShloMosaic Idealize.ShloMosaic.TcCoe Idealize.SL.Sem Idealize.ShloMosaic.ValueIdx
open Idealize.ShloMosaic.LayoutColumn
open Idealize.ShloMosaic.Pipeline (Dat)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

/-- The feature array as launched. -/
abbrev feats (c : Dev nD) : S64x576x768.Idx → EReal := m ((c : Thread nD τ).loc main_arg0)
/-- The position array as launched. -/
abbrev posns (c : Dev nD) : S64x576.Idx → BitVec 32 := m ((c : Thread nD τ).loc main_arg1)

/-- The batch a grid point works on. -/
def batchOf (t : Fin cfg0.N) : Fin 64 := ⟨t.val, by have h := t.isLt; have hN : cfg0.N = 64 := N_0; omega⟩

/-- Every window's block index at point t is (t, 0, 0). -/
theorem idx_facts : ∀ t : Fin cfg0.N,
    win0_0.index t (0 : Fin 3) = t.val ∧ win0_0.index t (1 : Fin 3) = 0 ∧ win0_0.index t (2 : Fin 3) = 0
  ∧ win0_1.index t (0 : Fin 3) = t.val ∧ win0_1.index t (1 : Fin 3) = 0 ∧ win0_1.index t (2 : Fin 3) = 0
  ∧ win0_2.index t (0 : Fin 3) = t.val ∧ win0_2.index t (1 : Fin 3) = 0 ∧ win0_2.index t (2 : Fin 3) = 0
  ∧ win0_3.index t (0 : Fin 3) = t.val ∧ win0_3.index t (1 : Fin 3) = 0 ∧ win0_3.index t (2 : Fin 3) = 0 :=
  (by decide +kernel : ∀ t : Fin grid0.N, _)

/-! ## The arrays the region finds -/

/-- The positions as columns: the host's broadcast of the argument, written before the region. -/
theorem V_columns (c : Dev nD) : (V m c main_v0 : S64x576x1.Idx → BitVec 32)
    = broadcastInDim S64x576x1 ![0, 1] bcast_S64x576_S64x576x1_0_1 (posns m c) := by
  show StableHlo.after hostOps0 (fun b => m (c, b)) (Proc.devRef .tc main_v0) = _
  after_results

/-- The positions as rows. -/
theorem V_rows (c : Dev nD) : (V m c main_v1 : S64x1x576.Idx → BitVec 32)
    = broadcastInDim S64x1x576 ![0, 2] bcast_S64x576_S64x1x576_0_2 (posns m c) := by
  show StableHlo.after hostOps0 (fun b => m (c, b)) (Proc.devRef .tc main_v1) = _
  after_results

/-! ## The input blocks at a point -/

/-- The feature block at point t is batch t of the argument. -/
theorem iblk0_apply (c : Dev nD) (t : Fin cfg0.N) (n : Fin 576) (d : Fin 768) :
    (iblk m c 0 t : Vec Ideal S1x576x768 .f32) (ix3 (0 : Fin 1) n d) = feats m c (ix3 (batchOf t) n d) := by
  obtain ⟨e0, e1, e2, -⟩ := idx_facts t
  show V m c main_arg0 (((cfg0.win 0).blk t).view.emb (ix3 (0 : Fin 1) n d)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 576 + 1 * n.val = n.val; omega
  | ⟨2, _⟩ => show win0_0.index t (2 : Fin 3) * 768 + 1 * d.val = d.val; omega

/-- The column block of position words at point t is batch t's positions. -/
theorem iblk1_apply (c : Dev nD) (t : Fin cfg0.N) (n : Fin 576) :
    (iblk m c 1 t : Vec Ideal S1x576x1 .i32) (ix3 (0 : Fin 1) n (0 : Fin 1)) = posns m c (ix2 (batchOf t) n) := by
  obtain ⟨-, -, -, e0, e1, e2, -⟩ := idx_facts t
  show V m c main_v0 (((cfg0.win 1).blk t).view.emb (ix3 (0 : Fin 1) n (0 : Fin 1))) = _
  rw [V_columns]
  refine broadcastInDim_apply _ _ _ _ _ fun a => ?_
  match a with
  | ⟨0, _⟩ => show t.val = win0_1.index t (0 : Fin 3) * 1 + 1 * 0; omega
  | ⟨1, _⟩ => show n.val = win0_1.index t (1 : Fin 3) * 576 + 1 * n.val; omega

/-- The row block of position words at point t is batch t's positions. -/
theorem iblk2_apply (c : Dev nD) (t : Fin cfg0.N) (k : Fin 576) :
    (iblk m c 2 t : Vec Ideal S1x1x576 .i32) (ix3 (0 : Fin 1) (0 : Fin 1) k) = posns m c (ix2 (batchOf t) k) := by
  obtain ⟨-, -, -, -, -, -, e0, e1, e2, -⟩ := idx_facts t
  show V m c main_v1 (((cfg0.win 2).blk t).view.emb (ix3 (0 : Fin 1) (0 : Fin 1) k)) = _
  rw [V_rows]
  refine broadcastInDim_apply _ _ _ _ _ fun a => ?_
  match a with
  | ⟨0, _⟩ => show t.val = win0_2.index t (0 : Fin 3) * 1 + 1 * 0; omega
  | ⟨1, _⟩ => show k.val = win0_2.index t (2 : Fin 3) * 576 + 1 * k.val; omega

/-! ## The output array -/

/-- The loss of the batch numbered k (zero past the last batch, where nothing is read). -/
def lossAt (X : S64x576x768.Idx → EReal) (P : S64x576.Idx → BitVec 32) (k : ℕ) : EReal :=
  if h : k < 64 then batchLoss (batchRows X ⟨k, h⟩) (batchPos P ⟨k, h⟩) else 0

theorem lossAt_val (X : S64x576x768.Idx → EReal) (P : S64x576.Idx → BitVec 32) (b : Fin 64) :
    lossAt X P b.val = batchLoss (batchRows X b) (batchPos P b) := by
  unfold lossAt
  rw [dif_pos b.isLt]

/-- The output array after the run: each batch's loss. -/
def lossArray (c : Dev nD) : S64x1x1.Idx → EReal := fun i => lossAt (feats m c) (posns m c) (i 0).val

/-- What point t writes back is block t of `lossArray`. -/
theorem flushed_eq (c : Dev nD) (t : Fin cfg0.N) :
    (dats m 0 c).flushed 3 t = ((cfg0.win 3).blk t).view.read (Elt Ideal) (lossArray m c) := by
  show (cfg0.win 3).cut (grid0.coords t) ((dats m 0 c).after 3 t) = _
  rw [after0_3]
  unfold out0_3
  rw [View.canon_unit_zero hz3]
  simp only [View.ld_unit_zero (S := S1x576x768) hz3, View.ld_unit_zero (S := S1x576x1) hz3,
    View.ld_unit_zero (S := S1x1x576) hz3]
  obtain ⟨-, -, -, -, -, -, -, -, -, e0, e1, e2⟩ := idx_facts t
  funext j
  show k0_pay1 (F := Ideal) (k0_pay5 (F := Ideal) (iblk m c 0 t) (iblk m c 1 t) (iblk m c 2 t))
      (k0_pay6 (F := Ideal) (iblk m c 0 t) (iblk m c 1 t) (iblk m c 2 t)) j
    = lossArray m c (((cfg0.win 3).blk t).view.emb j)
  refine (congrFun (Kernel.payload_eq (iblk m c 0 t) (iblk m c 1 t) (iblk m c 2 t)
    (batchPos (posns m c) (batchOf t)) (fun n => iblk1_apply m c t n) (fun k => iblk2_apply m c t k)) j).trans ?_
  have hrows : (fun (n : Fin 576) (d : Fin 768) => (iblk m c 0 t : Vec Ideal S1x576x768 .f32) (ix3 (0 : Fin 1) n d))
      = batchRows (feats m c) (batchOf t) := funext fun n => funext fun d => iblk0_apply m c t n d
  rw [hrows]
  have hj : (j 0).val < 1 := (j 0).isLt
  have hemb : ((((cfg0.win 3).blk t).view.emb j) 0).val = (batchOf t).val := by
    show win0_3.index t (0 : Fin 3) * 1 + 1 * (j 0).val = t.val
    omega
  unfold lossArray
  rw [hemb, lossAt_val]

/-- An index of the output array is in point t's block iff its leading coordinate is t. -/
theorem mem_blk (t : Fin cfg0.N) (i : S64x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- The 64 blocks cover the output array, so it ends as `lossArray`. -/
theorem final (c : Dev nD) : (dats m 0 c).arrAt 3 cfg0.N = lossArray m c :=
  (dats m 0 c).arrAt_eq_of_cover 3 (lossArray m c) (fun t _ => flushed_eq m c t) fun i => by
    have h0 : (i 0).val < 64 := (i 0).isLt
    have h1 : (i 1).val < 1 := (i 1).isLt
    have h2 : (i 2).val < 1 := (i 2).isLt
    have hN : cfg0.N = 64 := N_0
    have hlt : (i 0).val < cfg0.N := by omega
    obtain ⟨-, -, -, -, -, -, -, -, -, e0, e1, e2⟩ := idx_facts ⟨(i 0).val, hlt⟩
    have e0' : win0_3.index ⟨(i 0).val, hlt⟩ (0 : Fin 3) = (i 0).val := e0
    refine ⟨⟨(i 0).val, hlt⟩, flush0_3 _, ?_⟩
    rw [mem_blk]
    intro a
    match a with
    | ⟨0, _⟩ =>
      show win0_3.index ⟨(i 0).val, hlt⟩ (0 : Fin 3) * 1 ≤ (i 0).val
        ∧ (i 0).val < win0_3.index ⟨(i 0).val, hlt⟩ (0 : Fin 3) * 1 + 1
      rw [e0']; omega
    | ⟨1, _⟩ =>
      show win0_3.index ⟨(i 0).val, hlt⟩ (1 : Fin 3) * 1 ≤ (i 1).val
        ∧ (i 1).val < win0_3.index ⟨(i 0).val, hlt⟩ (1 : Fin 3) * 1 + 1
      rw [e1]; omega
    | ⟨2, _⟩ =>
      show win0_3.index ⟨(i 0).val, hlt⟩ (2 : Fin 3) * 1 ≤ (i 2).val
        ∧ (i 2).val < win0_3.index ⟨(i 0).val, hlt⟩ (2 : Fin 3) * 1 + 1
      rw [e2]; omega

/-! ## The host's lines after the region -/

/-- The result buffer after the tail: the output array summed from zero, over the row count. -/
theorem tail_eq (c : Dev nD) :
    Pipeline.afterTail₀ cfgs (dats m) 0 (V0 m) [hostOps1] c main_v4
      = Host.divf (F := Ideal)
          (Host.reduceAdd (F := Ideal) ((dats m 0 c).arrAt 3 cfg0.N) (constant (F := Ideal) S_ .f32 0x00000000#32)
            reducesTo_S64x1x1_S_d0_1_2 h_S_)
          (constant (F := Ideal) S_ .f32 0x47100000#32) := by
  unfold Pipeline.afterTail₀
  show StableHlo.after hostOps1 _ (Proc.devRef .tc main_v4) = _
  after_results
  rw [Pipeline.withArrays_arr spec0 launch0.win.arr_inj c _ _ 3]

/-- The result is the mean loss. -/
theorem result_eq (c : Dev nD) :
    Pipeline.afterTail₀ cfgs (dats m) 0 (V0 m) [hostOps1] c main_v4 = fun _ => meanLoss (feats m c) (posns m c) := by
  rw [tail_eq, final]
  funext i
  show Ideal.div (Ideal.hostReduceAdd reducesTo_S64x1x1_S_d0_1_2 (lossArray m c) (Ideal.ofBits .f32 0x00000000#32) i)
      (Ideal.ofBits .f32 0x47100000#32) = _
  rw [Ideal.hostReduceAdd_total reducesTo_S64x1x1_S_d0_1_2 (fun b => b.elim0), Ideal.ofBits_zero_f32, zero_add, sum_idx_n11]
  unfold meanLoss
  refine congrArg (fun s => Ideal.div s rowCount) (Finset.sum_congr rfl fun b _ => ?_)
  exact lossAt_val (feats m c) (posns m c) b

/-! ## The run -/

/-- Every weakly fair execution terminates with the result buffer at the mean loss and the arguments unchanged. -/
theorem run : θ_run defs (onTc (τ := τ) (main (F := Ideal))) ⟨m, fun _ => 0, ρ⟩ fun r => ∀ c : Dev nD,
      r.2.mem ((c.tc : Thread nD τ).loc main_v4) = (fun _ => meanLoss (feats m c) (posns m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Contrastive.KernelRun

end
-- ==== Proof.RefValue.lean ====
/-
  The reference computes `meanLoss` of its two arguments.

  Its operations are read one at a time at an index (the generated stage lemmas), down to scalar expressions
  over the argument arrays:
    * the scaled row: x / max(√(0 + Σ_d x_d²), 1e-12), the sum's zero initial value dropped;
    * the scaled similarity: the inner product of two scaled rows divided by the temperature — which is the
      product with the reciprocal temperature — times one minus the identity matrix, the off-diagonal mask;
    * the position mask: the position test as a float times the off-diagonal mask;
    * the row's loss: softplus of the difference of the two masked row sums;
    * the mean: the sum over all (batch, row) pairs, regrouped as a sum over batches of sums over rows, over the
      row count.
-/
import proofs.«102892_j68015102099702_1_alg».proof.Proof.Gen.ReferenceIdeal.Read
import proofs.«102892_j68015102099702_1_alg».proof.Proof.Spec
import proofs.«102892_j68015102099702_1_alg».proof.Proof.Scalars
import Idealize.ShloMosaic.Lib.IdealHost
import Idealize.ShloMosaic.Lib.ValueIdx

noncomputable section

namespace Cert.Contrastive.Ref

open Idealize.ShloMosaic Idealize.ShloMosaic.ValueIdx Cert.ReferenceIdeal Cert.ReferenceIdeal.Read

/-- The reference's scaled row. -/
theorem unit_apply (X : S64x576x768.Idx → EReal) (b : Fin 64) (n : Fin 576) (d : Fin 768) :
    val_main_v4 (F := Ideal) X (ix3 b n d) = unitRow (batchRows X b n) d := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply]
  have hidx : ∀ k : Fin 768, idx_main_call0_v1 (idx_main_call0_v2 (idx_main_v3 (ix3 b n d))) k = ix3 b n k := fun k =>
    funext fun a => Fin.ext (by match a with | ⟨0, _⟩ => rfl | ⟨1, _⟩ => rfl | ⟨2, _⟩ => rfl)
  simp only [hidx]
  show Ideal.div (X (ix3 b n d)) (max (Ideal.sqrt (Ideal.ofBits .f32 0x00000000#32
      + ∑ k : Fin 768, X (ix3 b n k) * X (ix3 b n k))) (Ideal.ofBits .f32 0x2B8CBCCC#32)) = _
  rw [Ideal.ofBits_zero_f32, zero_add]
  rfl

/-- The reference's off-diagonal mask, one minus the identity matrix broadcast over the batches. -/
theorem offDiag_apply (b : Fin 64) (n m : Fin 576) :
    val_main_v23 (F := Ideal) (ix3 b n m) = offDiag n m := by
  rw [val_main_v23_apply, val_main_v22_apply, val_main_v21_apply, val_main_v20_apply, val_main_cst_1_apply,
    val_main_v19_apply, val_main_v18_apply, val_main_v17_apply, val_main_v14_apply, val_main_v16_apply,
    val_main_c_apply, val_main_v15_apply]
  exact offDiag_ref n m

/-- The same value through the second copy of the two broadcasts. -/
theorem offDiag_apply' (b : Fin 64) (n m : Fin 576) :
    val_main_v26 (F := Ideal) (ix3 b n m) = offDiag n m := by
  rw [val_main_v26_apply, val_main_v25_apply, val_main_v21_apply, val_main_v20_apply, val_main_cst_1_apply,
    val_main_v19_apply, val_main_v18_apply, val_main_v17_apply, val_main_v14_apply, val_main_v16_apply,
    val_main_c_apply, val_main_v15_apply]
  exact offDiag_ref n m

/-- The reference's scaled similarity, zero on the diagonal. -/
theorem sim_apply (X : S64x576x768.Idx → EReal) (b : Fin 64) (n m : Fin 576) :
    val_main_v24 (F := Ideal) X (ix3 b n m) = sim (batchRows X b) n m := by
  rw [val_main_v24_apply, offDiag_apply, val_main_v7_apply, val_main_v5_apply, val_main_v6_apply, val_main_cst_0_apply]
  have hl : ∀ k : Fin 768, lidx_main_v5 (ix3 b n m) k = ix3 b n k := fun k =>
    funext fun a => Fin.ext (by match a with | ⟨0, _⟩ => rfl | ⟨1, _⟩ => rfl | ⟨2, _⟩ => rfl)
  have hr : ∀ k : Fin 768, ridx_main_v5 (ix3 b n m) k = ix3 b m k := fun k =>
    funext fun a => Fin.ext (by match a with | ⟨0, _⟩ => rfl | ⟨1, _⟩ => rfl | ⟨2, _⟩ => rfl)
  simp only [hl, hr, unit_apply]
  show Ideal.div (∑ k : Fin 768, unitRow (batchRows X b n) k * unitRow (batchRows X b m) k)
      (Ideal.ofBits .f32 0x3D8F5C29#32) * offDiag n m = _
  rw [Consts.div_temperature]
  rfl

/-- The reference's position mask. -/
theorem posMask_apply (P : S64x576.Idx → BitVec 32) (b : Fin 64) (n m : Fin 576) :
    val_main_v27 (F := Ideal) P (ix3 b n m) = posMask (batchPos P b) n m := by
  rw [val_main_v27_apply, offDiag_apply', val_main_v13_apply, val_main_v12_apply, val_main_v10_apply,
    val_main_v11_apply, val_main_v8_apply, val_main_v9_apply]
  have h8 : idx_main_v8 (idx_main_v10 (ix3 b n m)) = ix2 b n :=
    funext fun a => Fin.ext (by match a with | ⟨0, _⟩ => rfl | ⟨1, _⟩ => rfl)
  have h9 : idx_main_v9 (idx_main_v11 (ix3 b n m)) = ix2 b m :=
    funext fun a => Fin.ext (by match a with | ⟨0, _⟩ => rfl | ⟨1, _⟩ => rfl)
  rw [h8, h9]
  exact congrArg (· * offDiag n m) (samePos_ref (P (ix2 b n)) (P (ix2 b m)))

/-- The difference of the reference's two masked row sums. -/
theorem gap_apply (X : S64x576x768.Idx → EReal) (P : S64x576.Idx → BitVec 32) (b : Fin 64) (n : Fin 576) :
    val_main_v38 (F := Ideal) X P (ix2 b n)
      = negSum (batchRows X b) (batchPos P b) n - posSum (batchRows X b) (batchPos P b) n := by
  rw [val_main_v38_apply, val_main_v37_apply, val_main_v35_apply, val_main_v36_apply, val_main_cst_6_apply,
    val_main_cst_5_apply, val_main_v31_apply, val_main_v29_apply, val_main_v30_apply, val_main_cst_3_apply,
    val_main_cst_2_apply]
  have h35 : ∀ k : Fin 576, idx_main_v35 (ix2 b n) k = ix3 b n k := fun k =>
    funext fun a => Fin.ext (by match a with | ⟨0, _⟩ => rfl | ⟨1, _⟩ => rfl | ⟨2, _⟩ => rfl)
  have h29 : ∀ k : Fin 576, idx_main_v29 (ix2 b n) k = ix3 b n k := fun k =>
    funext fun a => Fin.ext (by match a with | ⟨0, _⟩ => rfl | ⟨1, _⟩ => rfl | ⟨2, _⟩ => rfl)
  simp only [h35, h29, val_main_v34_apply, val_main_v33_apply, val_main_v32_apply, val_main_cst_4_apply,
    val_main_v28_apply, sim_apply, posMask_apply]
  show (Ideal.ofBits .f32 0x00000000#32
        + ∑ k : Fin 576, sim (batchRows X b) n k * (Ideal.ofBits .f32 0x3F800000#32 - posMask (batchPos P b) n k))
        + Ideal.ofBits .f32 0x322BCC77#32
      - ((Ideal.ofBits .f32 0x00000000#32 + ∑ k : Fin 576, sim (batchRows X b) n k * posMask (batchPos P b) n k)
        + Ideal.ofBits .f32 0x322BCC77#32) = _
  rw [Ideal.ofBits_zero_f32, zero_add, zero_add, Ideal.ofBits_one_f32]
  rfl

/-- The reference's row loss. -/
theorem loss_apply (X : S64x576x768.Idx → EReal) (P : S64x576.Idx → BitVec 32) (b : Fin 64) (n : Fin 576) :
    val_main_v39 (F := Ideal) X P (ix2 b n) = rowLoss (batchRows X b) (batchPos P b) n := by
  rw [val_main_v39_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, gap_apply]
  exact softplus_ref _

/-- The reference's result is the mean loss. -/
theorem result_eq (X : S64x576x768.Idx → EReal) (P : S64x576.Idx → BitVec 32) :
    val_main_v41 (F := Ideal) X P = fun _ => meanLoss X P := by
  funext i
  rw [val_main_v41_apply, val_main_v40_apply, val_main_cst_7_apply, val_main_cst_8_apply]
  show Ideal.div (Ideal.ofBits .f32 0x00000000#32 + ∑ j : S64x576.Idx, val_main_v39 (F := Ideal) X P j)
      (Ideal.ofBits .f32 0x47100000#32) = _
  rw [Ideal.ofBits_zero_f32, zero_add, sum_idx2]
  simp only [loss_apply]
  rfl

end Cert.Contrastive.Ref

end
-- ==== Proof.lean ====
/-
  The contrastive loss kernel against its reference.

  Both programs take a feature array X : [64, 576, 768] and a position array P : [64, 576] and return one number:
  the mean over all 64 · 576 rows of softplus(negative − positive), where for row n of a batch, positive and
  negative are the sums over the batch's other rows m of the cosine similarity of rows n and m over the
  temperature, taken over the rows at the same position as n and over the rest respectively (Proof/Spec.lean states
  it as `meanLoss X P`).

  The kernel works one batch per grid point and leaves that batch's loss in its output block; the host sums the
  64 blocks and divides (Proof/KernelBlock.lean, Proof/KernelRun.lean). The reference computes every row at once
  and takes the mean (Proof/RefValue.lean). Over the extended reals the two are one function: the orders and
  groupings of the sums do not matter there, the narrower float format on the way into the matrix product is the
  identity, the two spellings of the masks and of softplus agree value by value (Proof/Scalars.lean), and the
  kernel's constant, named the reciprocal of the reference's temperature, turns the reference's division into the
  kernel's product (Proof/Consts.lean). Finiteness of the inputs is not used.

  The three frames are the generated ones; the kernel's idealization differs from the kernel in the one named
  constant, whose statement is the rule's.
-/
import proofs.«102892_j68015102099702_1_alg».proof.Defs
import proofs.«102892_j68015102099702_1_alg».proof.Proof.Gen.Kernel
import proofs.«102892_j68015102099702_1_alg».proof.Proof.Gen.Kernel.Skeleton
import proofs.«102892_j68015102099702_1_alg».proof.Proof.Gen.Kernel.Launch
import proofs.«102892_j68015102099702_1_alg».proof.Proof.Gen.Kernel.Points
import proofs.«102892_j68015102099702_1_alg».proof.Proof.Gen.Kernel.Frame
import proofs.«102892_j68015102099702_1_alg».proof.Proof.Gen.KernelIdeal
import proofs.«102892_j68015102099702_1_alg».proof.Proof.Gen.KernelIdeal.Skeleton
import proofs.«102892_j68015102099702_1_alg».proof.Proof.Gen.KernelIdeal.Launch
import proofs.«102892_j68015102099702_1_alg».proof.Proof.Gen.KernelIdeal.Points
import proofs.«102892_j68015102099702_1_alg».proof.Proof.Gen.KernelIdeal.Frame
import proofs.«102892_j68015102099702_1_alg».proof.Proof.Gen.ReferenceIdeal
import proofs.«102892_j68015102099702_1_alg».proof.Proof.Gen.Pre_finite_inputs
import proofs.«102892_j68015102099702_1_alg».proof.Proof.Gen.ReferenceIdeal.Run
import proofs.«102892_j68015102099702_1_alg».proof.Proof.Gen.ReferenceIdeal.Read
import proofs.«102892_j68015102099702_1_alg».proof.Proof.KernelRun
import proofs.«102892_j68015102099702_1_alg».proof.Proof.RefValue
import Idealize.ShloMosaic.Adequacy
import Idealize.ShloMosaic.Init
import Idealize.ShloMosaic.PureOps.IdealRules

noncomputable section

namespace Cert.Proof

open Idealize.ShloMosaic Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite: the constant 14.285714149475098 is read as 2^27 / 9395241, the reciprocal of the reference's
    temperature. -/
theorem preserves : Cert.preserves_Kernel_KernelIdeal :=
  IdealRules.named_const.statement Cert.KernelIdeal.κ "inv_temperature" .f32 0x41649249#32
    ((134217728 / 9395241 : ℝ) : EReal) rfl

/-- Both programs end with their result at the mean loss of the (agreeing) arguments. -/
theorem algebraic : Cert.algebraic_KernelIdeal_ReferenceIdeal := by
  intro m ρ m' ρ' _ hagree
  refine ⟨fun c => fun _ => Cert.Contrastive.meanLoss (Cert.Contrastive.KernelRun.feats m c) (Cert.Contrastive.KernelRun.posns m c),
    Cert.Contrastive.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.Contrastive.Ref.result_eq, (hagree c).1, (hagree c).2]
  rfl

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
